-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x117000 : Shape := ⟨3, ![4, 64, 117000]⟩
abbrev S500000 : Shape := ⟨1, ![500000]⟩
abbrev S2x500000 : Shape := ⟨2, ![2, 500000]⟩
abbrev S_ : Shape := ⟨0, ![]⟩

class Facts : Prop where
  bcast_S_S4x64x117000 : S_.BroadcastsInDim S4x64x117000 (![] : Fin 0 → Fin S4x64x117000.rank)
  reducesTo_S4x64x117000_S_d0_1_2 : S4x64x117000.ReducesTo [0, 1, 2] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S4x64x117000 .f32) (main_arg1 : FVec F S500000 .f32) (main_arg2 : IVec S2x500000 32) : IVec S_ 1 :=
  let main_v0 : FVec F S4x64x117000 .f32 := Host.absf main_arg0
  let main_cst : FVec F S_ .f32 := constant S_ .f32 0x7F800000#32
  let main_v1 : FVec F S4x64x117000 .f32 := broadcastInDim S4x64x117000 ![] bcast_S_S4x64x117000 main_cst
  let main_v2 : IVec S4x64x117000 1 := cmpf .olt main_v0 main_v1
  let main_c : IVec S_ 1 := constantI S_ 1 1#1
  let main_v3 : IVec S_ 1 := (fun x v => Host.reduce IntOp.andi x v reducesTo_S4x64x117000_S_d0_1_2 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  main_v8
-- ==== Kernel.lean ====
abbrev S4x64x117000 : Shape := ⟨3, ![4, 64, 117000]⟩
abbrev S500000 : Shape := ⟨1, ![500000]⟩
abbrev S2x500000 : Shape := ⟨2, ![2, 500000]⟩
abbrev S1x500000 : Shape := ⟨2, ![1, 500000]⟩
abbrev S256x117000 : Shape := ⟨2, ![256, 117000]⟩
abbrev S117000x256 : Shape := ⟨2, ![117000, 256]⟩
abbrev S500000x1 : Shape := ⟨2, ![500000, 1]⟩
abbrev S_ : Shape := ⟨0, ![]⟩
abbrev S500000x256 : Shape := ⟨2, ![500000, 256]⟩
abbrev S117000 : Shape := ⟨1, ![117000]⟩
abbrev S1x117000 : Shape := ⟨2, ![1, 117000]⟩
abbrev S256x118784 : Shape := ⟨2, ![256, 118784]⟩
abbrev S1x118784 : Shape := ⟨2, ![1, 118784]⟩
abbrev S256x4096 : Shape := ⟨2, ![256, 4096]⟩
abbrev S1x4096 : Shape := ⟨2, ![1, 4096]⟩

abbrev nBuf : Space → Nat
  | .hbm => 44
  | .vmem => 8
  | .smem => 0
  | _ => 0

abbrev bufTy : (tb : Table) → Fin (tcTables nBuf tb) → BufTy
  | .hbm, ⟨0, _⟩ => ⟨S4x64x117000, .f32⟩
  | .hbm, ⟨1, _⟩ => ⟨S500000, .f32⟩
  | .hbm, ⟨2, _⟩ => ⟨S2x500000, .i32⟩
  | .hbm, ⟨3, _⟩ => ⟨S1x500000, .i32⟩
  | .hbm, ⟨4, _⟩ => ⟨S500000, .i32⟩
  | .hbm, ⟨5, _⟩ => ⟨S1x500000, .i32⟩
  | .hbm, ⟨6, _⟩ => ⟨S500000, .i32⟩
  | .hbm, ⟨7, _⟩ => ⟨S256x117000, .f32⟩
  | .hbm, ⟨8, _⟩ => ⟨S117000x256, .f32⟩
  | .hbm, ⟨9, _⟩ => ⟨S500000x1, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S500000x256, .f32⟩
  | .hbm, ⟨20, _⟩ => ⟨S500000x256, .f32⟩
  | .hbm, ⟨21, _⟩ => ⟨S_, .f32⟩
  | .hbm, ⟨22, _⟩ => ⟨S117000x256, .f32⟩
  | .hbm, ⟨23, _⟩ => ⟨S500000x1, .i32⟩
  | .hbm, ⟨24, _⟩ => ⟨S117000x256, .f32⟩
  | .hbm, ⟨25, _⟩ => ⟨S_, .f32⟩
  | .hbm, ⟨26, _⟩ => ⟨S117000, .f32⟩
  | .hbm, ⟨27, _⟩ => ⟨S500000x1, .i32⟩
  | .hbm, ⟨28, _⟩ => ⟨S117000, .f32⟩
  | .hbm, ⟨29, _⟩ => ⟨S256x117000, .f32⟩
  | .hbm, ⟨30, _⟩ => ⟨S256x117000, .f32⟩
  | .hbm, ⟨31, _⟩ => ⟨S1x117000, .f32⟩
  | .hbm, ⟨32, _⟩ => ⟨S_, .i32⟩
  | .hbm, ⟨33, _⟩ => ⟨S_, .f32⟩
  | .hbm, ⟨34, _⟩ => ⟨S256x118784, .f32⟩
  | .hbm, ⟨35, _⟩ => ⟨S_, .i32⟩
  | .hbm, ⟨36, _⟩ => ⟨S_, .f32⟩
  | .hbm, ⟨37, _⟩ => ⟨S256x118784, .f32⟩
  | .hbm, ⟨38, _⟩ => ⟨S_, .f32⟩
  | .hbm, ⟨39, _⟩ => ⟨S_, .f32⟩
  | .hbm, ⟨40, _⟩ => ⟨S1x118784, .f32⟩
  | .hbm, ⟨41, _⟩ => ⟨S256x118784, .f32⟩
  | .hbm, ⟨42, _⟩ => ⟨S256x117000, .f32⟩
  | .hbm, ⟨43, _⟩ => ⟨S4x64x117000, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S4x64x117000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_call0_v0 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_cst_4 : Ref sig .tc := ⟨.hbm, 38, rfl⟩
abbrev main_call2_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S4x64x117000_S256x117000 : S4x64x117000.ShapeCasts S256x117000
  transposes_S256x117000_S117000x256_1_0 : S256x117000.Transposes [1, 0] S117000x256
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x256_0_1 : S500000x1.BroadcastsInDim S500000x256 (![0, 1] : Fin 2 → Fin S500000x256.rank)
  bcast_S_S117000x256 : S_.BroadcastsInDim S117000x256 (![] : Fin 0 → Fin S117000x256.rank)
  bcast_S_S117000 : S_.BroadcastsInDim S117000 (![] : Fin 0 → Fin S117000.rank)
  transposes_S117000x256_S256x117000_1_0 : S117000x256.Transposes [1, 0] S256x117000
  shapeCasts_S117000_S1x117000 : S117000.ShapeCasts S1x117000
  pads_S256x117000_S256x118784_000_017840 : S256x117000.Pads (![0, 0] : Fin 2 → Nat) ![0, 1784] ![0, 0] S256x118784
  h_S_ : 0 < S_.numel
  pads_S1x117000_S1x118784_000_017840 : S1x117000.Pads (![0, 0] : Fin 2 → Nat) ![0, 1784] ![0, 0] S1x118784
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  slices_S256x118784_S256x117000_0_0 : S256x118784.Slices ![0, 0] S256x117000
  shapeCasts_S256x117000_S4x64x117000 : S256x117000.ShapeCasts S4x64x117000
  gather_S117000x256_S500000x1_S500000x256_1_0_n_n_0_1_1256_wf : GatherDims.WF S117000x256 S500000x1 S500000x256 [1] [0] [] [0] [] 1 ![1, 256]
  scatter_S117000x256_S500000x1_S500000x256_1_0_0_1_wf : ScatterDims.WF S117000x256 S500000x1 S500000x256 [1] [0] [0] 1
  scatter_S117000_S500000x1_S500000_n_0_0_1_wf : ScatterDims.WF S117000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x118784.size a
  hwx0_0 : ∀ i : grid0.Coords, EltTy.bits .f32 = 32 ∨ (Rect.block (s := S256x118784) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x118784.size a
  hwx0_1 : ∀ i : grid0.Coords, EltTy.bits .f32 = 32 ∨ (Rect.block (s := S256x118784) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x118784.size a
  hwx0_2 : ∀ i : grid0.Coords, EltTy.bits .f32 = 32 ∨ (Rect.block (s := S1x118784) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x118784.size a
  hwx0_3 : ∀ i : grid0.Coords, EltTy.bits .f32 = 32 ∨ (Rect.block (s := S256x118784) S256x4096.size (cc0_transform_3 i) (hinb0_3 i)).WholeWords (EltTy.packing .f32)

variable [Facts₀]

def gather_S117000x256_S500000x1_S500000x256_1_0_n_n_0_1_1256 : GatherDims S117000x256 S500000x1 S500000x256 where
  offsetDims := [1]
  collapsedSliceDims := [0]
  operandBatchingDims := []
  startIndicesBatchingDims := []
  startIndexMap := [0]
  indexVectorDim := 1
  sliceSizes := ![1, 256]
  wf := gather_S117000x256_S500000x1_S500000x256_1_0_n_n_0_1_1256_wf
def scatter_S117000x256_S500000x1_S500000x256_1_0_0_1 : ScatterDims S117000x256 S500000x1 S500000x256 where
  updateWindowDims := [1]
  insertedWindowDims := [0]
  scatterDimsToOperandDims := [0]
  indexVectorDim := 1
  wf := scatter_S117000x256_S500000x1_S500000x256_1_0_0_1_wf
def scatter_S117000_S500000x1_S500000_n_0_0_1 : ScatterDims S117000 S500000x1 S500000 where
  updateWindowDims := []
  insertedWindowDims := [0]
  scatterDimsToOperandDims := [0]
  indexVectorDim := 1
  wf := scatter_S117000_S500000x1_S500000_n_0_0_1_wf

abbrev win0_0 : Pipeline.Window sig grid0 :=
  Pipeline.Window.ofSpec (Memref.whole main_v25) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x117000 : Shape := ⟨3, ![4, 64, 117000]⟩
abbrev S500000 : Shape := ⟨1, ![500000]⟩
abbrev S2x500000 : Shape := ⟨2, ![2, 500000]⟩
abbrev S1x500000 : Shape := ⟨2, ![1, 500000]⟩
abbrev S256x117000 : Shape := ⟨2, ![256, 117000]⟩
abbrev S117000x256 : Shape := ⟨2, ![117000, 256]⟩
abbrev S500000x1 : Shape := ⟨2, ![500000, 1]⟩
abbrev S_ : Shape := ⟨0, ![]⟩
abbrev S500000x256 : Shape := ⟨2, ![500000, 256]⟩
abbrev S117000 : Shape := ⟨1, ![117000]⟩
abbrev S117000x1 : Shape := ⟨2, ![117000, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x64x117000, .f32⟩
  | .hbm, ⟨1, _⟩ => ⟨S500000, .f32⟩
  | .hbm, ⟨2, _⟩ => ⟨S2x500000, .i32⟩
  | .hbm, ⟨3, _⟩ => ⟨S1x500000, .i32⟩
  | .hbm, ⟨4, _⟩ => ⟨S500000, .i32⟩
  | .hbm, ⟨5, _⟩ => ⟨S1x500000, .i32⟩
  | .hbm, ⟨6, _⟩ => ⟨S500000, .i32⟩
  | .hbm, ⟨7, _⟩ => ⟨S256x117000, .f32⟩
  | .hbm, ⟨8, _⟩ => ⟨S117000x256, .f32⟩
  | .hbm, ⟨9, _⟩ => ⟨S500000x1, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S500000x256, .f32⟩
  | .hbm, ⟨20, _⟩ => ⟨S500000x256, .f32⟩
  | .hbm, ⟨21, _⟩ => ⟨S_, .f32⟩
  | .hbm, ⟨22, _⟩ => ⟨S117000x256, .f32⟩
  | .hbm, ⟨23, _⟩ => ⟨S500000x1, .i32⟩
  | .hbm, ⟨24, _⟩ => ⟨S117000x256, .f32⟩
  | .hbm, ⟨25, _⟩ => ⟨S_, .f32⟩
  | .hbm, ⟨26, _⟩ => ⟨S117000, .f32⟩
  | .hbm, ⟨27, _⟩ => ⟨S500000x1, .i32⟩
  | .hbm, ⟨28, _⟩ => ⟨S117000, .f32⟩
  | .hbm, ⟨29, _⟩ => ⟨S117000x1, .f32⟩
  | .hbm, ⟨30, _⟩ => ⟨S117000x256, .f32⟩
  | .hbm, ⟨31, _⟩ => ⟨S117000x256, .f32⟩
  | .hbm, ⟨32, _⟩ => ⟨S256x117000, .f32⟩
  | .hbm, ⟨33, _⟩ => ⟨S4x64x117000, .f32⟩
  | .hbm, ⟨34, _⟩ => ⟨S4x64x117000, .f32⟩
  | _, _ => ⟨S4x64x117000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S4x64x117000_S256x117000 : S4x64x117000.ShapeCasts S256x117000
  transposes_S256x117000_S117000x256_1_0 : S256x117000.Transposes [1, 0] S117000x256
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x256_0_1 : S500000x1.BroadcastsInDim S500000x256 (![0, 1] : Fin 2 → Fin S500000x256.rank)
  bcast_S_S117000x256 : S_.BroadcastsInDim S117000x256 (![] : Fin 0 → Fin S117000x256.rank)
  bcast_S_S117000 : S_.BroadcastsInDim S117000 (![] : Fin 0 → Fin S117000.rank)
  bcast_S117000_S117000x1_0 : S117000.BroadcastsInDim S117000x1 (![0] : Fin 1 → Fin S117000x1.rank)
  bcast_S117000x1_S117000x256_0_1 : S117000x1.BroadcastsInDim S117000x256 (![0, 1] : Fin 2 → Fin S117000x256.rank)
  transposes_S117000x256_S256x117000_1_0 : S117000x256.Transposes [1, 0] S256x117000
  shapeCasts_S256x117000_S4x64x117000 : S256x117000.ShapeCasts S4x64x117000
  gather_S117000x256_S500000x1_S500000x256_1_0_n_n_0_1_1256_wf : GatherDims.WF S117000x256 S500000x1 S500000x256 [1] [0] [] [0] [] 1 ![1, 256]
  scatter_S117000x256_S500000x1_S500000x256_1_0_0_1_wf : ScatterDims.WF S117000x256 S500000x1 S500000x256 [1] [0] [0] 1
  scatter_S117000_S500000x1_S500000_n_0_0_1_wf : ScatterDims.WF S117000 S500000x1 S500000 [] [0] [0] 1

variable [Facts₀]

def gather_S117000x256_S500000x1_S500000x256_1_0_n_n_0_1_1256 : GatherDims S117000x256 S500000x1 S500000x256 where
  offsetDims := [1]
  collapsedSliceDims := [0]
  operandBatchingDims := []
  startIndicesBatchingDims := []
  startIndexMap := [0]
  indexVectorDim := 1
  sliceSizes := ![1, 256]
  wf := gather_S117000x256_S500000x1_S500000x256_1_0_n_n_0_1_1256_wf
def scatter_S117000x256_S500000x1_S500000x256_1_0_0_1 : ScatterDims S117000x256 S500000x1 S500000x256 where
  updateWindowDims := [1]
  insertedWindowDims := [0]
  scatterDimsToOperandDims := [0]
  indexVectorDim := 1
  wf := scatter_S117000x256_S500000x1_S500000x256_1_0_0_1_wf
def scatter_S117000_S500000x1_S500000_n_0_0_1 : ScatterDims S117000 S500000x1 S500000 where
  updateWindowDims := []
  insertedWindowDims := [0]
  scatterDimsToOperandDims := [0]
  indexVectorDim := 1
  wf := scatter_S117000_S500000x1_S500000_n_0_0_1_wf

class Facts : Prop extends Facts₀ where

variable [Facts]
-- ==== Proof.RegionValue.lean ====
/-
  The region's output array as ONE function of its three operand arrays.

  The grid has 29 points. Point `t` stages columns `4096·t … 4096·t + 4095` of two [256, 118784] arrays `A`, `B` and
  of one [1, 118784] row `C`, and writes back, at row `r` and lane `l` of its block, `A + B / C` with the one row of
  `C` repeated down the 256 rows. The 29 blocks tile the output array, so after the run its entry `(r, n)` is
  `A (r, n) + B (r, n) / C (0, n)`.
-/
import proofs.«104978_j28802050687522_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The function -/

/-- The entry `(0, n)` of the divisor row that stands above the entry `(r, n)` of the array. -/
abbrev above (j : S256x118784.Idx) : S1x118784.Idx := fun a => match a with
  | ⟨0, _⟩ => ⟨0, Nat.one_pos⟩
  | ⟨1, _⟩ => ⟨(j 1).val, (j 1).isLt⟩

/-- The same inside one block: lane `l` of the block's one divisor row, above `(r, l)`. -/
abbrev aboveInBlock (j : S256x4096.Idx) : S1x4096.Idx := fun a => match a with
  | ⟨0, _⟩ => ⟨0, Nat.one_pos⟩
  | ⟨1, _⟩ => ⟨(j 1).val, (j 1).isLt⟩

/-- What the region leaves in its output array: entry by entry `A + B / C`, the divisor taken from the one row of `C`. -/
def regionOut (A B : S256x118784.Idx → Elt F .f32) (C : S1x118784.Idx → Elt F .f32) : S256x118784.Idx → Elt F .f32 :=
  fun j => FloatOps.addf (A j) (FloatOps.divf (B j) (C (above j)))

/-! ## One block -/

/-- The body's stored value, lane by lane: the first block plus the second block over the divisor row's lane. The
    same-shape casts are identities and the row is repeated down the block. -/
theorem payload_eq (v0 : Vec F S1x4096 .f32) (v4 v6 : Vec F S256x4096 .f32) :
    k0_pay1 v0 v4 v6 = fun j => FloatOps.addf (v4 j) (FloatOps.divf (v6 j) (v0 (aboveInBlock j))) := by
  funext j
  unfold k0_pay1
  simp only [shapeCast_self]
  show FloatOps.addf (v4 j) (FloatOps.divf (v6 j) (broadcastTo S256x4096 v0 broadcasts_S1x4096_S256x4096 j)) = _
  rw [broadcastTo_apply v0 broadcasts_S1x4096_S256x4096 j (aboveInBlock j) (fun a => match a with
    | ⟨0, _⟩ => by show (0 : Nat) = if (1 : Nat) = 1 then 0 else (j 0).val; rw [if_pos rfl]
    | ⟨1, _⟩ => by show (j 1).val = if (4096 : Nat) = 1 then 0 else (j 1).val; rw [if_neg (by decide)])]

theorem zeroOffsets : (![0, 0] : Fin 2 → Nat) = fun _ => 0 := funext fun a => by fin_cases a <;> rfl

/-- All four windows sit at block row 0 and block column `t` at point `t`, decided over the 29 points. -/
theorem windows_move_together : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) = 0 ∧ win0_3.index t (1 : Fin 2) ≤ 28 :=
  (by decide +kernel : ∀ t : Fin grid0.N, _)

/-- Every block column is some point's. -/
theorem every_block_column : ∀ q : Fin 29, ∃ t : Fin cfg0.N, win0_3.index t = ![0, q.val] :=
  (by decide +kernel : ∀ q : Fin 29, ∃ t : Fin grid0.N, win0_3.index t = ![0, q.val])

/-- What point `t` writes back is block `t` of `regionOut` of the operand arrays as the region finds them. -/
theorem flushed_eq (c : Dev nD) (t : Fin cfg0.N) :
    (dats m 0 c).flushed 3 t = ((cfg0.win 3).blk t).view.read (Elt F)
      (regionOut (V m c main_v25) (V m c main_v26) (V m c main_v27)) := by
  show (cfg0.win 3).cut (grid0.coords t) ((dats m 0 c).after 3 t) = _
  rw [after0_3]
  unfold out0_3
  rw [View.canon_unit_zero zeroOffsets]
  simp only [View.ld_unit_zero (S := S256x4096) zeroOffsets, View.ld_unit_zero (S := S1x4096) zeroOffsets]
  rw [payload_eq]
  obtain ⟨e0, e1, e2, e3, e4, e5, e6, e7⟩ := windows_move_together t
  funext j
  show FloatOps.addf (V m c main_v25 (((cfg0.win 0).blk t).view.emb j))
      (FloatOps.divf (V m c main_v26 (((cfg0.win 1).blk t).view.emb j)) (V m c main_v27 (((cfg0.win 2).blk t).view.emb (aboveInBlock j))))
    = FloatOps.addf (V m c main_v25 (((cfg0.win 3).blk t).view.emb j))
      (FloatOps.divf (V m c main_v26 (((cfg0.win 3).blk t).view.emb j)) (V m c main_v27 (above (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 4096 + 1 * (j 1).val = win0_3.index t (1 : Fin 2) * 4096 + 1 * (j 1).val; omega
  have h2 : ((cfg0.win 2).blk t).view.emb (aboveInBlock j) = above (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 4096 + 1 * (j 1).val = win0_3.index t (1 : Fin 2) * 4096 + 1 * (j 1).val; omega
  rw [h0, h1, h2]

/-! ## The blocks tile the array -/

/-- An entry of the array is in point `t`'s block iff each coordinate is in the block's range on its axis. -/
theorem mem_block (t : Fin cfg0.N) (i : S256x118784.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v28).slice (win0_3.rect t)).set ↔ _
  rw [View.set_slice_whole, Rect.mem_set_unit]
  exact Iff.rfl

/-- Column `n` is in the block of the point with block column `n / 4096`. -/
theorem every_entry_written (i : S256x118784.Idx) :
    ∃ t : Fin cfg0.N, (cfg0.win 3).flush t = true ∧ i ∈ ((cfg0.win 3).blk t).view.set := by
  have hi0 : (i 0).val < 256 := (i 0).isLt
  have hi1 : (i 1).val < 118784 := (i 1).isLt
  obtain ⟨t, ht⟩ := every_block_column ⟨(i 1).val / 4096, by omega⟩
  have q0 : win0_3.index t (0 : Fin 2) = 0 := congrFun ht 0
  have q1 : win0_3.index t (1 : Fin 2) = (i 1).val / 4096 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The output array after the run is `regionOut` of the operand arrays as the region finds them. -/
theorem region_array (c : Dev nD) :
    (dats m 0 c).arrAt 3 cfg0.N = regionOut (V m c main_v25) (V m c main_v26) (V m c main_v27) :=
  (dats m 0 c).arrAt_eq_of_cover 3 _ (fun t _ => flushed_eq m c t) every_entry_written

end Cert.KernelIdeal.RegionValue

end
-- ==== Proof.Operands.lean ====
/-
  The three arrays the region reads, as the host operations before it leave them.

  Before the region the program computes, from the arguments `x` (the [4, 64, 117000] array), `w` (the 500000
  weights) and `e` (the [2, 500000] endpoints), two scatter-sums: the [117000, 256] array of weighted neighbour
  sums and the [117000] vector of row sums of the weights. These are, operation for operation, the reference
  program's own two scatter-sums (its stages `%18` and `%21`), so they are named here by the reference's stage functions
  and never opened. The region's operands are then
    * `x` viewed as [256, 117000] and padded with 1784 columns of `0`,
    * the neighbour sums transposed to [256, 117000] and padded with 1784 columns of `0`,
    * the row sums viewed as one row [1, 117000] and padded with 1784 columns of `1`.
-/
import proofs.«104978_j28802050687522_1_alg».proof.Proof.Gen.KernelIdeal.Frame
import proofs.«104978_j28802050687522_1_alg».proof.Proof.Gen.ReferenceIdeal.Read
import Idealize.ShloMosaic.Lib.StableHlo.Run

set_option maxRecDepth 16384

noncomputable section

namespace Cert.KernelIdeal.Operands

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The weighted neighbour sums, [117000, 256]: the reference's scatter-sum of the same arguments. -/
abbrev neighbourSums (c : Dev nD) : S117000x256.Idx → Elt F .f32 :=
  Cert.ReferenceIdeal.Read.val_main_v18 (F := F) (m ((c : Thread nD τ).loc main_arg0)) (m ((c : Thread nD τ).loc main_arg1)) (m ((c : Thread nD τ).loc main_arg2))

/-- The row sums of the weights, [117000]: the reference's scatter-sum of the same arguments. -/
abbrev rowSums (c : Dev nD) : S117000.Idx → Elt F .f32 :=
  Cert.ReferenceIdeal.Read.val_main_v21 (F := F) (m ((c : Thread nD τ).loc main_arg1)) (m ((c : Thread nD τ).loc main_arg2))

/-- The first operand: `x` as [256, 117000], padded with zeros. -/
theorem operand_x (c : Dev nD) : (V m c main_v25 : S256x118784.Idx → Elt F .f32)
    = pad S256x118784 ![0, 0] ![0, 1784] ![0, 0]
        (shapeCast S256x117000 (m ((c : Thread nD τ).loc main_arg0)) shapeCasts_S4x64x117000_S256x117000)
        (sitofp (F := F) .f32 (constantI S_ 32 0#32)) pads_S256x117000_S256x118784_000_017840 h_S_ := by
  dsimp only [Gen.V, Gen.V0]
  simp only [hostOps0, hostOps0_1, hostOps0_2, hostOps0_3, hostOps0_4, hostOps0_5, List.flatten_cons, List.flatten_nil, List.append_nil, List.cons_append, List.nil_append]
  after_results_simp
  rfl

/-- The second operand: the neighbour sums transposed to [256, 117000], padded with zeros. -/
theorem operand_neigh (c : Dev nD) : (V m c main_v26 : S256x118784.Idx → Elt F .f32)
    = pad S256x118784 ![0, 0] ![0, 1784] ![0, 0]
        (transpose S256x117000 [1, 0] (neighbourSums m c) transposes_S117000x256_S256x117000_1_0)
        (sitofp (F := F) .f32 (constantI S_ 32 0#32)) pads_S256x117000_S256x118784_000_017840 h_S_ := by
  dsimp only [Gen.V, Gen.V0]
  simp only [hostOps0, hostOps0_1, hostOps0_2, hostOps0_3, hostOps0_4, hostOps0_5, List.flatten_cons, List.flatten_nil, List.append_nil, List.cons_append, List.nil_append]
  after_results_simp
  rfl

/-- The third operand: the row sums as one row [1, 117000], padded with ones. -/
theorem operand_rowsum (c : Dev nD) : (V m c main_v27 : S1x118784.Idx → Elt F .f32)
    = pad S1x118784 ![0, 0] ![0, 1784] ![0, 0]
        (shapeCast S1x117000 (rowSums m c) shapeCasts_S117000_S1x117000)
        (constant (F := F) S_ .f32 0x3F800000#32) pads_S1x117000_S1x118784_000_017840 h_S_ := by
  dsimp only [Gen.V, Gen.V0]
  simp only [hostOps0, hostOps0_1, hostOps0_2, hostOps0_3, hostOps0_4, hostOps0_5, List.flatten_cons, List.flatten_nil, List.append_nil, List.cons_append, List.nil_append]
  after_results_simp
  rfl

end Cert.KernelIdeal.Operands

end
-- ==== Proof.KernelRun.lean ====
/-
  The idealized kernel program's run, with its result named.

  After the region the program keeps the first 117000 columns of the region's [256, 118784] output and views them as
  [4, 64, 117000]. The region's output is `regionOut` of its three operands, and the operands are the padded arrays of
  the argument `x`, of the neighbour sums and of the row sums. So every weakly fair execution ends with the result
  buffer at that one term of the arguments, and with the arguments as launched.
-/
import proofs.«104978_j28802050687522_1_alg».proof.Proof.RegionValue
import proofs.«104978_j28802050687522_1_alg».proof.Proof.Operands
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem Idealize.ShloMosaic.StableHlo
open Cert.KernelIdeal.RegionValue Cert.KernelIdeal.Operands
open Idealize.ShloMosaic.Pipeline (Dat)

variable {F : FTy → Type} [FloatOps F]
variable (m : (ℓ : Loc nD τ sig) → Buf (Elt F) ℓ) (ρ : Dev nD → PrngReg)

/-- The result as one term of the arguments: the first 117000 columns of `regionOut` of the three padded operands,
    viewed as [4, 64, 117000]. -/
def result (c : Dev nD) : S4x64x117000.Idx → Elt F .f32 :=
  shapeCast S4x64x117000 (extractStridedSlice S256x117000 ![0, 0]
      (regionOut
        (pad S256x118784 ![0, 0] ![0, 1784] ![0, 0]
          (shapeCast S256x117000 (m ((c : Thread nD τ).loc main_arg0)) shapeCasts_S4x64x117000_S256x117000)
          (sitofp (F := F) .f32 (constantI S_ 32 0#32)) pads_S256x117000_S256x118784_000_017840 h_S_)
        (pad S256x118784 ![0, 0] ![0, 1784] ![0, 0]
          (transpose S256x117000 [1, 0] (neighbourSums m c) transposes_S117000x256_S256x117000_1_0)
          (sitofp (F := F) .f32 (constantI S_ 32 0#32)) pads_S256x117000_S256x118784_000_017840 h_S_)
        (pad S1x118784 ![0, 0] ![0, 1784] ![0, 0]
          (shapeCast S1x117000 (rowSums m c) shapeCasts_S117000_S1x117000)
          (constant (F := F) S_ .f32 0x3F800000#32) pads_S1x117000_S1x118784_000_017840 h_S_))
      slices_S256x118784_S256x117000_0_0) shapeCasts_S256x117000_S4x64x117000

/-- The two host operations after the region, applied to the region's output array. -/
theorem tail_result (c : Dev nD) :
    Pipeline.afterTail₀ cfgs (dats m) 0 (V0 m) [hostOps1] c main_v30
      = shapeCast S4x64x117000 (extractStridedSlice S256x117000 ![0, 0] ((dats m 0 c).arrAt 3 cfg0.N)
          slices_S256x118784_S256x117000_0_0) shapeCasts_S256x117000_S4x64x117000 := by
  unfold Pipeline.afterTail₀
  show StableHlo.after hostOps1 _ (Proc.devRef .tc main_v30) = _
  after_results
  rw [Pipeline.withArrays_arr spec0 launch0.win.arr_inj c _ _ 3]
  rfl

/-- The result buffer after the run. -/
theorem result_eq (c : Dev nD) :
    Pipeline.afterTail₀ cfgs (dats m) 0 (V0 m) [hostOps1] c main_v30 = result m c := by
  rw [tail_result, region_array, operand_x, operand_neigh, operand_rowsum]
  rfl

/-- Every weakly fair execution of the idealized kernel program terminates with the result buffer at `result` and the
    arguments as launched. -/
theorem run : θ_run defs (onTc (τ := τ) (main (F := F))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.Entry.lean ====
/-
  One entry of the kernel's result, read through the layout operations around the region.

  Entry `(b, t, n)` of the [4, 64, 117000] result is entry `(r, n)`, `r = 64·b + t`, of the first 117000 columns of the
  region's [256, 118784] output. There the three padded operands are read inside their unpadded parts: the first is
  `x (b, t, n)` again (the view [4, 64, 117000] → [256, 117000] and back), the second is entry `(n, r)` of the
  [117000, 256] sums (the transpose), the third is entry `n` of the [117000] row sums (the view as one row). So the entry
  is `x (b, t, n) + S (n, r) / s n`. The padding columns are never read.
-/
import proofs.«104978_j28802050687522_1_alg».proof.Proof.RegionValue
import proofs.«104978_j28802050687522_1_alg».proof.Proof.Gen.ReferenceIdeal.Read
import Idealize.ShloMosaic.Lib.Pipeline.Value
import Idealize.ShloMosaic.Lib.KernelVsHost

set_option maxRecDepth 16384

noncomputable section

namespace Cert.KernelIdeal.Entry

open Cert.KernelIdeal Cert.KernelIdeal.Gen Cert.KernelIdeal.RegionValue Idealize.ShloMosaic

variable {F : FTy → Type} [FloatOps F] {α : Type}

/-! ## The indices -/

/-- Entry `(b, t, n)` of the result as entry `(64·b + t, n)` of the [256, 117000] view. -/
abbrev flatRow (i : S4x64x117000.Idx) : S256x117000.Idx := Cert.ReferenceIdeal.Read.idx_main_v26 i

/-- Entry `(n, 64·b + t)` of the [117000, 256] sums. -/
abbrev sumEntry (i : S4x64x117000.Idx) : S117000x256.Idx := Cert.ReferenceIdeal.Read.idx_main_v25 (flatRow i)

/-- Entry `n` of the [117000] row sums. -/
abbrev rowEntry (i : S4x64x117000.Idx) : S117000.Idx :=
  Cert.ReferenceIdeal.Read.idx_main_v22 (Cert.ReferenceIdeal.Read.idx_main_v23 (sumEntry i))

/-- An entry of the [256, 117000] array as an entry of the padded [256, 118784] array. -/
abbrev inPadded (j : S256x117000.Idx) : S256x118784.Idx := fun a => match a with
  | ⟨0, _⟩ => ⟨(j 0).val, (j 0).isLt⟩
  | ⟨1, _⟩ => ⟨(j 1).val, by have h : (j 1).val < 117000 := (j 1).isLt; show (j 1).val < 118784; omega⟩

/-- The entry `(0, n)` of the unpadded row [1, 117000] above entry `(r, n)`. -/
abbrev inRow (j : S256x117000.Idx) : S1x117000.Idx := fun a => match a with
  | ⟨0, _⟩ => ⟨0, Nat.one_pos⟩
  | ⟨1, _⟩ => ⟨(j 1).val, (j 1).isLt⟩

/-! ## The layout operations, each read at one entry -/

theorem regionOut_apply (A B : S256x118784.Idx → Elt F .f32) (C : S1x118784.Idx → Elt F .f32) (j : S256x118784.Idx) :
    regionOut A B C j = FloatOps.addf (A j) (FloatOps.divf (B j) (C (above j))) := rfl

/-- The first 117000 columns, viewed as [4, 64, 117000]: entry `(b, t, n)` is entry `(64·b + t, n)`. -/
theorem result_entry (G : S256x118784.Idx → α) (i : S4x64x117000.Idx) :
    shapeCast S4x64x117000 (extractStridedSlice S256x117000 ![0, 0] G slices_S256x118784_S256x117000_0_0)
      shapeCasts_S256x117000_S4x64x117000 i = G (inPadded (flatRow i)) := by
  refine (shapeCast_apply _ shapeCasts_S256x117000_S4x64x117000 i (flatRow i) ?_).trans ?_
  · rewrite [Shape.rowMajor_val_two, Shape.rowMajor_val_three]
    have h0 : (i 0).val < 4 := (i 0).isLt
    have h1 : (i 1).val < 64 := (i 1).isLt
    have h2 : (i 2).val < 117000 := (i 2).isLt
    show (((i 0).val * 64 + (i 1).val) * 117000 + (i 2).val) / 117000 * 117000 + (((i 0).val * 64 + (i 1).val) * 117000 + (i 2).val) % 117000 = ((i 0).val * 64 + (i 1).val) * 117000 + (i 2).val
    omega
  · exact extractStridedSlice_apply ![0, 0] G slices_S256x118784_S256x117000_0_0 (flatRow i) (inPadded (flatRow i)) (fun a => match a with
      | ⟨0, _⟩ => by show ((flatRow i) 0).val = 0 + ((flatRow i) 0).val; omega
      | ⟨1, _⟩ => by show ((flatRow i) 1).val = 0 + ((flatRow i) 1).val; omega)

/-- A [256, 117000] array padded on the right, read inside the unpadded part. -/
theorem padded_entry (y : S256x117000.Idx → α) (z : S_.Idx → α) (j : S256x117000.Idx) :
    pad S256x118784 ![0, 0] ![0, 1784] ![0, 0] y z pads_S256x117000_S256x118784_000_017840 h_S_ (inPadded j) = y j :=
  pad_apply_of_inside ![0, 0] ![0, 1784] ![0, 0] y z pads_S256x117000_S256x118784_000_017840 h_S_ (inPadded j) j (fun a => match a with
    | ⟨0, _⟩ => by show (j 0).val = 0 + (j 0).val * (0 + 1); omega
    | ⟨1, _⟩ => by show (j 1).val = 0 + (j 1).val * (0 + 1); omega)

/-- The padded row [1, 118784], read above an entry of the unpadded part. -/
theorem padded_row_entry (y : S1x117000.Idx → α) (o : S_.Idx → α) (j : S256x117000.Idx) :
    pad S1x118784 ![0, 0] ![0, 1784] ![0, 0] y o pads_S1x117000_S1x118784_000_017840 h_S_ (above (inPadded j)) = y (inRow j) :=
  pad_apply_of_inside ![0, 0] ![0, 1784] ![0, 0] y o pads_S1x117000_S1x118784_000_017840 h_S_ (above (inPadded j)) (inRow j) (fun a => match a with
    | ⟨0, _⟩ => by show (0 : Nat) = 0 + 0 * (0 + 1); omega
    | ⟨1, _⟩ => by show (j 1).val = 0 + (j 1).val * (0 + 1); omega)

/-! ## The entry -/

/-- Entry `(b, t, n)` of the kernel's result, for any contents of the three arrays and any padding values:
    `x (b, t, n) + S (n, 64·b + t) / s n`. -/
theorem kernel_entry (x : S4x64x117000.Idx → Elt F .f32) (S : S117000x256.Idx → Elt F .f32) (s : S117000.Idx → Elt F .f32)
    (z z' o : S_.Idx → Elt F .f32) (i : S4x64x117000.Idx) :
    shapeCast S4x64x117000 (extractStridedSlice S256x117000 ![0, 0]
        (regionOut
          (pad S256x118784 ![0, 0] ![0, 1784] ![0, 0] (shapeCast S256x117000 x shapeCasts_S4x64x117000_S256x117000) z pads_S256x117000_S256x118784_000_017840 h_S_)
          (pad S256x118784 ![0, 0] ![0, 1784] ![0, 0] (transpose S256x117000 [1, 0] S transposes_S117000x256_S256x117000_1_0) z' pads_S256x117000_S256x118784_000_017840 h_S_)
          (pad S1x118784 ![0, 0] ![0, 1784] ![0, 0] (shapeCast S1x117000 s shapeCasts_S117000_S1x117000) o pads_S1x117000_S1x118784_000_017840 h_S_))
        slices_S256x118784_S256x117000_0_0) shapeCasts_S256x117000_S4x64x117000 i
      = FloatOps.addf (x i) (FloatOps.divf (S (sumEntry i)) (s (rowEntry i))) := by
  rw [result_entry, regionOut_apply, padded_entry, padded_entry, padded_row_entry]
  have hx : shapeCast S256x117000 x shapeCasts_S4x64x117000_S256x117000 (flatRow i) = x i := by
    refine shapeCast_apply x shapeCasts_S4x64x117000_S256x117000 (flatRow i) i ?_
    rewrite [Shape.rowMajor_val_three, Shape.rowMajor_val_two]
    have h0 : (i 0).val < 4 := (i 0).isLt
    have h1 : (i 1).val < 64 := (i 1).isLt
    have h2 : (i 2).val < 117000 := (i 2).isLt
    show ((i 0).val * 64 + (i 1).val) * 117000 + (i 2).val = (((i 0).val * 64 + (i 1).val) * 117000 + (i 2).val) / 117000 * 117000 + (((i 0).val * 64 + (i 1).val) * 117000 + (i 2).val) % 117000
    omega
  have hS : transpose S256x117000 [1, 0] S transposes_S117000x256_S256x117000_1_0 (flatRow i) = S (sumEntry i) :=
    transpose_apply [1, 0] S transposes_S117000x256_S256x117000_1_0 (flatRow i) (sumEntry i) (fun b => match b with
      | ⟨0, _⟩ => rfl
      | ⟨1, _⟩ => rfl)
  have hs : shapeCast S1x117000 s shapeCasts_S117000_S1x117000 (inRow (flatRow i)) = s (rowEntry i) := by
    refine shapeCast_apply s shapeCasts_S117000_S1x117000 (inRow (flatRow i)) (rowEntry i) ?_
    rewrite [Shape.rowMajor_val_one, Shape.rowMajor_val_two]
    show ((flatRow i) 1).val = 0 * 117000 + ((flatRow i) 1).val
    omega
  rw [hx, hS, hs]

end Cert.KernelIdeal.Entry

end
-- ==== Proof.SameResult.lean ====
/-
  The two idealized programs compute the same array.

  Entry `(b, t, n)` of the kernel program's result is `x (b, t, n) + S (n, r) / s n` with `r = 64·b + t`, where `S`
  is the array of weighted neighbour sums and `s` the vector of row sums. The reference divides first on the
  [117000, 256] array, transposes, views the quotient as [4, 64, 117000] and adds `x` on the right: its entry is
  `S (n, r) / s n + x (b, t, n)`. Both divisions are the one division of the extended reals, and addition of extended
  reals commutes, whatever its arguments (infinite ones included), so no finiteness of the inputs is used.
-/
import proofs.«104978_j28802050687522_1_alg».proof.Proof.Entry
import proofs.«104978_j28802050687522_1_alg».proof.Proof.KernelRun
import proofs.«104978_j28802050687522_1_alg».proof.Proof.Gen.ReferenceIdeal.Read
import Idealize.ShloMosaic.PureOps.Ideal

set_option maxRecDepth 16384

noncomputable section

namespace Cert.SameResult

open Idealize.ShloMosaic Idealize.ShloMosaic.TcCoe Idealize.SL.Sem
open Cert.KernelIdeal.Entry

/-- The reference's result at entry `(b, t, n)`: the quotient `S (n, r) / s n` plus `x (b, t, n)`, read through its
    view as [4, 64, 117000], its transpose and the two broadcasts of the row sums. -/
theorem reference_entry {F : FTy → Type} [FloatOps F]
    (x0 : (⟨Cert.ReferenceIdeal.S4x64x117000, .f32⟩ : BufTy).Contents (Elt F))
    (x1 : (⟨Cert.ReferenceIdeal.S500000, .f32⟩ : BufTy).Contents (Elt F))
    (x2 : (⟨Cert.ReferenceIdeal.S2x500000, .i32⟩ : BufTy).Contents (Elt F))
    (i : Cert.ReferenceIdeal.S4x64x117000.Idx) :
    Cert.ReferenceIdeal.Read.val_main_v27 (F := F) x0 x1 x2 i
      = FloatOps.addf (FloatOps.hostDivf (Cert.ReferenceIdeal.Read.val_main_v18 (F := F) x0 x1 x2 (sumEntry i))
          (Cert.ReferenceIdeal.Read.val_main_v21 (F := F) x1 x2 (rowEntry i))) (x0 i) := by
  rw [Cert.ReferenceIdeal.Read.val_main_v27_apply, Cert.ReferenceIdeal.Read.val_main_v26_apply,
    Cert.ReferenceIdeal.Read.val_main_v25_apply, Cert.ReferenceIdeal.Read.val_main_v24_apply,
    Cert.ReferenceIdeal.Read.val_main_v23_apply, Cert.ReferenceIdeal.Read.val_main_v22_apply]

/-- On the extended reals the kernel program's result is the reference's result of the same arguments. -/
theorem result_agrees (m : (ℓ : Loc Cert.KernelIdeal.nD Cert.KernelIdeal.τ Cert.KernelIdeal.sig) → Buf (Elt Ideal) ℓ)
    (c : Dev Cert.KernelIdeal.nD) :
    Cert.KernelIdeal.KernelRun.result (F := Ideal) m c
      = Cert.ReferenceIdeal.Read.val_main_v27 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  unfold Cert.KernelIdeal.KernelRun.result
  refine (kernel_entry _ _ _ _ _ _ i).trans ?_
  rw [reference_entry]
  simp only [Ideal.addf_def, Ideal.divf_def, Ideal.hostDivf_def]
  exact add_comm _ _

end Cert.SameResult

end
-- ==== Proof.lean ====
/-
  The certificate's claim.

  The three programs run and leave their arguments unchanged: the two kernel programs by their generated frame runs,
  the reference by its generated run. The idealized kernel is the kernel's own text read over the extended reals, with
  nothing rewritten. And the two idealized programs end with equal results: the kernel program's result array is
  `x + S / s` entry by entry and the reference's is `S / s + x`, over the same two scatter-sums `S` and `s` of the same
  arguments.
-/
import proofs.«104978_j28802050687522_1_alg».proof.Defs
import proofs.«104978_j28802050687522_1_alg».proof.Proof.Gen.Kernel
import proofs.«104978_j28802050687522_1_alg».proof.Proof.Gen.Kernel.Skeleton
import proofs.«104978_j28802050687522_1_alg».proof.Proof.Gen.Kernel.Launch
import proofs.«104978_j28802050687522_1_alg».proof.Proof.Gen.Kernel.Points
import proofs.«104978_j28802050687522_1_alg».proof.Proof.Gen.Kernel.Frame
import proofs.«104978_j28802050687522_1_alg».proof.Proof.Gen.KernelIdeal
import proofs.«104978_j28802050687522_1_alg».proof.Proof.Gen.KernelIdeal.Skeleton
import proofs.«104978_j28802050687522_1_alg».proof.Proof.Gen.KernelIdeal.Launch
import proofs.«104978_j28802050687522_1_alg».proof.Proof.Gen.KernelIdeal.Points
import proofs.«104978_j28802050687522_1_alg».proof.Proof.Gen.KernelIdeal.Frame
import proofs.«104978_j28802050687522_1_alg».proof.Proof.Gen.ReferenceIdeal
import proofs.«104978_j28802050687522_1_alg».proof.Proof.Gen.Pre_finite_inputs
import proofs.«104978_j28802050687522_1_alg».proof.Proof.Gen.ReferenceIdeal.Run
import proofs.«104978_j28802050687522_1_alg».proof.Proof.Gen.ReferenceIdeal.Read
import proofs.«104978_j28802050687522_1_alg».proof.Proof.KernelRun
import proofs.«104978_j28802050687522_1_alg».proof.Proof.SameResult
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten in the idealized kernel. -/
theorem preserves : Cert.preserves_Kernel_KernelIdeal := trivial

/-- From memories that agree on the arguments the two idealized programs end with the same result array: the
    reference's function of the arguments. -/
theorem algebraic : Cert.algebraic_KernelIdeal_ReferenceIdeal := by
  intro m ρ m' ρ' _ hagree
  refine ⟨fun c => Cert.KernelIdeal.KernelRun.result (F := Ideal) m c, Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  exact (Cert.SameResult.result_agrees m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
